-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S1x1x4096 : Shape := ⟨3, ![1, 1, 4096]⟩
abbrev S1x512x4096 : Shape := ⟨3, ![1, 512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x1x4096, .f32⟩
  | .local _ .vmem, ⟨3, _⟩ => ⟨S1x512x4096, .f32⟩
  | .local _ .vmem, ⟨4, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096_S1x1x4096 : S4096.ShapeCasts S1x1x4096
  inb_S1x512x4096_S1x512x4096_0_0_0 : ∀ a, (![0, 0, 0] : Fin 3 → Nat) a + S1x512x4096.size a ≤ S1x512x4096.size a
  h_S1x512x4096 : 0 < S1x512x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  broadcasts_S1x1x4096_S1x512x4096 : S1x1x4096.Broadcasts S1x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S1x1x4096.size a
  hwx0_1 : ∀ i : grid0.Coords, EltTy.bits .f32 = 32 ∨ (Rect.block (s := S1x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.ColumnScale.lean ====
/-
  The function both programs compute: every entry of a [4, 4096, 4096] array multiplied by the weight of its
  column, `out (b, s, h) = x (b, s, h) · w h` — the product of each row with the diagonal matrix `diag w`, which
  touches one entry of the row and one weight. It is stated once, over any float values and with no program in
  sight; the two programs are then each shown to compute it.
-/
import Idealize.ShloMosaic.Lib.ValueIdx

noncomputable section

namespace Cert.ColumnScale

open Idealize.ShloMosaic

/-- The array's shape: 4 batches of 4096 rows of 4096 columns. -/
abbrev Arr : Shape := ⟨3, ![4, 4096, 4096]⟩
/-- The weights' shape: one weight per column. -/
abbrev Wts : Shape := ⟨1, ![4096]⟩

/-- The weight under an array index: that of its column, the index's last coordinate. -/
abbrev col (i : Arr.Idx) : Wts.Idx := fun a => match a with
  | ⟨0, _⟩ => ⟨(i 2).val, (i 2).isLt⟩

variable {F : FTy → Type} [FloatOps F]

/-- `x` scaled column by column: the entry at `(b, s, h)` is `x (b, s, h) · w h`. -/
def scaled (x : Arr.Idx → Elt F .f32) (w : Wts.Idx → Elt F .f32) : Arr.Idx → Elt F .f32 :=
  fun i => FloatOps.mulf (x i) (w (col i))

theorem scaled_apply (x : Arr.Idx → Elt F .f32) (w : Wts.Idx → Elt F .f32) (i : Arr.Idx) :
    scaled x w i = FloatOps.mulf (x i) (w (col i)) := rfl

end Cert.ColumnScale

end
-- ==== Proof.ReferenceScale.lean ====
/-
  The reference computes the column scaling. It lays the weights out as the one row [1, 1, 4096], repeats that row
  over the 4 batches and the 4096 rows of each, and multiplies the array by the result entry by entry. Each of the
  two broadcasts reads its operand at the index's last coordinate, so the factor that meets `x (b, s, h)` is `w h`.
-/
import proofs.«157855_j17918603559163_2_alg».proof.Proof.Gen.ReferenceIdeal.Read
import proofs.«157855_j17918603559163_2_alg».proof.Proof.ColumnScale

noncomputable section

namespace Cert.ReferenceIdeal.RefValue

open Cert.ReferenceIdeal Cert.ReferenceIdeal.Gen Idealize.ShloMosaic

variable {F : FTy → Type} [FloatOps F]

/-- Through both broadcasts, the weight read under the array index `i` is the one of `i`'s column. -/
theorem weight_index (i : S4x4096x4096.Idx) :
    Read.idx_main_v0 (Read.idx_main_v1 i) = Cert.ColumnScale.col i :=
  funext fun a => Fin.ext (by match a with | ⟨0, _⟩ => rfl)

/-- The reference's result, as a function of its two arguments, is the array scaled column by column. -/
theorem stage_eq_scaled (x0 : (⟨S4x4096x4096, .f32⟩ : BufTy).Contents (Elt F))
    (x1 : (⟨S4096, .f32⟩ : BufTy).Contents (Elt F)) :
    Read.val_main_v2 (F := F) x0 x1 = Cert.ColumnScale.scaled x0 x1 := by
  funext i
  rw [Read.val_main_v2_apply, Read.val_main_v1_apply, Read.val_main_v0_apply, weight_index]
  rfl

end Cert.ReferenceIdeal.RefValue

end
-- ==== Proof.WeightRow.lean ====
/-
  The weights as the kernel's region finds them. Before the region the host re-lays the weight vector [4096] as the
  one row [1, 1, 4096]; a re-laying keeps every element at its row-major position, and the position of `(0, 0, h)` in
  the row is `h`, so the row read at `(0, 0, h)` is the weight `w h`.
-/
import proofs.«157855_j17918603559163_2_alg».proof.Proof.Gen.KernelIdeal.Frame
import Idealize.ShloMosaic.Lib.Pipeline.Value
import Idealize.ShloMosaic.Lib.StableHlo.Run

noncomputable section

namespace Cert.KernelIdeal.WeightRow

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The weight under an index of the row: its last coordinate. -/
abbrev under (k : S1x1x4096.Idx) : S4096.Idx := fun a => match a with
  | ⟨0, _⟩ => ⟨(k 2).val, (k 2).isLt⟩

/-- At the region's entry the row buffer holds the weight vector re-laid as [1, 1, 4096]. -/
theorem row_eq (c : Dev nD) :
    (V m c main_v0 : S1x1x4096.Idx → Elt F .f32)
      = shapeCast S1x1x4096 (m ((c : Thread nD τ).loc main_arg1)) shapeCasts_S4096_S1x1x4096 := by
  dsimp only [Gen.V, Gen.hostOps0]; after_results; rfl

/-- The row read at `k` is the weight of `k`'s last coordinate: both sit at the same row-major position. -/
theorem row_apply (c : Dev nD) (k : S1x1x4096.Idx) :
    (V m c main_v0 : S1x1x4096.Idx → Elt F .f32) k = m ((c : Thread nD τ).loc main_arg1) (under k) := by
  rw [row_eq]
  refine shapeCast_apply _ _ k (under k) ?_
  rw [Shape.rowMajor_val_one, Shape.rowMajor_val_three]
  have h0 : (k 0).val < 1 := (k 0).isLt
  have h1 : (k 1).val < 1 := (k 1).isLt
  show (k 2).val = ((k 0).val * 1 + (k 1).val) * 4096 + (k 2).val
  omega

end Cert.KernelIdeal.WeightRow

end
-- ==== Proof.BlockScale.lean ====
/-
  From blocks to the array. The kernel walks a 4 × 8 grid; at the point `(b, q)` it stages rows `512 q … 512 q + 511` of
  batch `b` of `x` (a [1, 512, 4096] block), and — at every point — the whole weight row [1, 1, 4096]; the body
  multiplies the block entry by entry with the row repeated down the 512 rows, and the result is written back as the
  same block of the output. So the entry of the output block at `(0, r, h)` is `x (b, 512 q + r, h) · w h`: the block of
  the column scaling that the point's rectangle names. The 32 blocks tile the output, hence the whole output array is the
  column scaling of the arguments.
-/
import proofs.«157855_j17918603559163_2_alg».proof.Proof.Gen.KernelIdeal.Value
import proofs.«157855_j17918603559163_2_alg».proof.Proof.ColumnScale
import proofs.«157855_j17918603559163_2_alg».proof.Proof.WeightRow

set_option maxRecDepth 16384

noncomputable section

namespace Cert.KernelIdeal.BlockScale

open Cert.KernelIdeal Cert.KernelIdeal.Gen Idealize.ShloMosaic Idealize.ShloMosaic.TcCoe Idealize.SL.Sem
open Idealize.ShloMosaic.Pipeline (Dat)
open Cert.ColumnScale (scaled col)

variable {F : FTy → Type} [FloatOps F]
variable (m : (ℓ : Loc nD τ sig) → Buf (Elt F) ℓ) (ρ : Dev nD → PrngReg)

/-! ## The body on one block -/

/-- The body's loads and its store start at the origin of their buffers. -/
theorem origin : (![0, 0, 0] : Fin 3 → Nat) = fun _ => 0 := funext fun a => by fin_cases a <;> rfl

/-- What the body leaves in the output buffer, for any block `P0` and any row `P1`: at `(0, r, h)` the product of the
    block's entry there with the row's entry at `(0, 0, h)`. -/
theorem body_eq (P0 : Vec F S1x512x4096 .f32) (P1 : Vec F S1x1x4096 .f32) : out0_2 P0 P1 = Value.E2 P0 P1 := by
  unfold out0_2
  rw [View.ld_unit_zero (S := S1x512x4096) origin, View.ld_unit_zero (S := S1x1x4096) origin]
  exact funext (Value.canon2_eq P0 P1)

/-- One entry of the body's result is one entry of the column scaling of `X` by `W`, as soon as the block's entry is
    `X`'s at the array index `i` and the row's entry is the weight of `i`'s column. -/
theorem entry_eq (X : S4x4096x4096.Idx → Elt F .f32) (W : S4096.Idx → Elt F .f32)
    (P0 : Vec F S1x512x4096 .f32) (P1 : Vec F S1x1x4096 .f32) (y : S1x512x4096.Idx) (i : S4x4096x4096.Idx)
    (h0 : P0 (Value.ix2_0 y) = X i) (h1 : P1 (Value.ix2_1 y) = W (col i)) :
    Value.E2 P0 P1 y = scaled X W i := by
  show FloatOps.mulf (P0 (Value.ix2_0 y)) (P1 (Value.ix2_1 y)) = FloatOps.mulf (X i) (W (col i))
  rw [h0, h1]

/-! ## Where a point's blocks sit in their arrays -/

/-- The block indices over the 32 grid points: the `x` block and the output block are the same block (batch and row
    group, the columns whole), and the weight row's block is always the one block there is. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 3) = 0
    ∧ win0_1.index t (1 : Fin 3) = 0
    ∧ win0_1.index t (2 : Fin 3) = 0 :=
  (by decide +kernel : ∀ t : Fin grid0.N, _)

/-- Every batch and row group is some grid point's output block. -/
theorem block_onto : ∀ (b : Fin 4) (q : Fin 8), ∃ t : Fin cfg0.N, win0_2.index t = ![b.val, q.val, 0] :=
  (by decide +kernel : ∀ (b : Fin 4) (q : Fin 8), ∃ t : Fin grid0.N, win0_2.index t = ![b.val, q.val, 0])

/-- The `x` block at point `t`, read at the row and column of an index `j` of the output block, is `x` at the array index
    under `j`: the two blocks are the same rectangle of their arrays. -/
theorem x_entry (c : Dev nD) (t : Fin cfg0.N) (y : S1x512x4096.Idx) (j : ((cfg0.win 2).xblock (grid0.coords t)).Idx)
    (h1 : (y 1).val = (j 1).val) (h2 : (y 2).val = (j 2).val) :
    iblk m c 0 t y = m ((c : Thread nD τ).loc main_arg0) (((cfg0.win 2).blk t).view.emb j) := by
  obtain ⟨e0, e1, e2, e3, -, -, -⟩ := block_indices t
  have hy0 : (y 0).val < 1 := (y 0).isLt
  have hj0 : (j 0).val < 1 := (j 0).isLt
  show V m c main_arg0 (((cfg0.win 0).blk t).view.emb y) = _
  rw [V_main_arg0]
  refine congrArg (m ((c : Thread nD τ).loc main_arg0)) (funext fun a => Fin.ext ?_)
  match a with
  | ⟨0, _⟩ => show win0_0.index t (0 : Fin 3) * 1 + 1 * (y 0).val = win0_2.index t (0 : Fin 3) * 1 + 1 * (j 0).val; omega
  | ⟨1, _⟩ => show win0_0.index t (1 : Fin 3) * 512 + 1 * (y 1).val = win0_2.index t (1 : Fin 3) * 512 + 1 * (j 1).val; omega
  | ⟨2, _⟩ => show win0_0.index t (2 : Fin 3) * 4096 + 1 * (y 2).val = win0_2.index t (2 : Fin 3) * 4096 + 1 * (j 2).val; omega

/-- The weight row at point `t`, read at the column of an index `j` of the output block, is the weight of the column of the
    array index under `j`. -/
theorem w_entry (c : Dev nD) (t : Fin cfg0.N) (k : S1x1x4096.Idx) (j : ((cfg0.win 2).xblock (grid0.coords t)).Idx)
    (h2 : (k 2).val = (j 2).val) :
    iblk m c 1 t k = m ((c : Thread nD τ).loc main_arg1) (col (((cfg0.win 2).blk t).view.emb j)) := by
  obtain ⟨-, -, -, e3, -, -, e6⟩ := block_indices t
  show (V m c main_v0 : S1x1x4096.Idx → Elt F .f32) (((cfg0.win 1).blk t).view.emb k) = _
  refine (WeightRow.row_apply m c _).trans ?_
  refine congrArg (m ((c : Thread nD τ).loc main_arg1)) (funext fun a => Fin.ext ?_)
  match a with
  | ⟨0, _⟩ => show win0_1.index t (2 : Fin 3) * 4096 + 1 * (k 2).val = win0_2.index t (2 : Fin 3) * 4096 + 1 * (j 2).val; omega

/-! ## What a point writes back, the cover, the whole array -/

/-- WHAT A POINT WRITES BACK is its block of the column scaling of the arguments. -/
theorem flushed_eq_block (c : Dev nD) (t : Fin cfg0.N) :
    (dats m 0 c).flushed 2 t = ((cfg0.win 2).blk t).view.read (Elt F)
      (scaled (m ((c : Thread nD τ).loc main_arg0)) (m ((c : Thread nD τ).loc main_arg1))) := by
  show (cfg0.win 2).cut (grid0.coords t) ((dats m 0 c).after 2 t) = _
  rw [after0_2, body_eq]
  funext j
  exact entry_eq (m ((c : Thread nD τ).loc main_arg0)) (m ((c : Thread nD τ).loc main_arg1))
    (iblk m c 0 t) (iblk m c 1 t) ((cfg0.win 2).xinj (grid0.coords t) j) (((cfg0.win 2).blk t).view.emb j)
    (x_entry m c t _ j rfl rfl) (w_entry m c t _ j rfl)

/-- An index of the output is in point `t`'s block iff each coordinate is in the block's range on its axis. -/
theorem mem_block (t : Fin cfg0.N) (i : S4x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v1).slice (win0_2.rect t)).set ↔ _
  rw [View.set_slice_whole, Rect.mem_set_unit]
  exact Iff.rfl

/-- THE BLOCKS COVER THE OUTPUT: the entry `(b, s, h)` is in the block of the point with batch `b` and row group `s / 512`,
    and every point writes its block back. -/
theorem covered (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := block_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-- THE OUTPUT ARRAY after the run is the column scaling of the arguments. -/
theorem whole_array (c : Dev nD) :
    (dats m 0 c).arrAt 2 cfg0.N
      = scaled (m ((c : Thread nD τ).loc main_arg0)) (m ((c : Thread nD τ).loc main_arg1)) :=
  (dats m 0 c).arrAt_eq_of_cover 2 _ (fun t _ => flushed_eq_block m c t) covered

/-- The kernel's run: every weakly fair execution terminates with the result at the column scaling of the arguments
    and the arguments unchanged. -/
theorem run : θ_run defs (onTc (τ := τ) (main (F := F))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (whole_array m c), (h c).2⟩) (Value.run_blocks m ρ)

end Cert.KernelIdeal.BlockScale

end
-- ==== Proof.lean ====
/-
  The certificate of the column-scaling kernel against its reference. Both programs take an array `x` of shape
  [4, 4096, 4096] and a weight vector `w` of 4096 entries and return `out (b, s, h) = x (b, s, h) · w h`, the product of
  every row with the diagonal matrix `diag w`.

  The kernel re-lays `w` as the row [1, 1, 4096] on the host and walks a 4 × 8 grid of [1, 512, 4096] blocks, each point
  multiplying its block of `x` by the row repeated down the block (Proof/WeightRow.lean, Proof/BlockScale.lean); the reference
  repeats the row over the whole array and multiplies once (Proof/ReferenceScale.lean). Each is shown to compute the one
  function `Cert.ColumnScale.scaled` of the arguments (Proof/ColumnScale.lean), index by index and over any float values:
  the same two factors meet, in the same order, at every index, so no law of arithmetic is used and the inputs'
  finiteness is never opened. The kernel read over the extended reals is the kernel's own text, no operation replaced,
  so there is nothing for the idealization claim to preserve.
-/
import proofs.«157855_j17918603559163_2_alg».proof.Defs
import proofs.«157855_j17918603559163_2_alg».proof.Proof.Gen.Kernel
import proofs.«157855_j17918603559163_2_alg».proof.Proof.Gen.Kernel.Skeleton
import proofs.«157855_j17918603559163_2_alg».proof.Proof.Gen.Kernel.Launch
import proofs.«157855_j17918603559163_2_alg».proof.Proof.Gen.Kernel.Points
import proofs.«157855_j17918603559163_2_alg».proof.Proof.Gen.Kernel.Frame
import proofs.«157855_j17918603559163_2_alg».proof.Proof.Gen.KernelIdeal
import proofs.«157855_j17918603559163_2_alg».proof.Proof.Gen.KernelIdeal.Skeleton
import proofs.«157855_j17918603559163_2_alg».proof.Proof.Gen.KernelIdeal.Launch
import proofs.«157855_j17918603559163_2_alg».proof.Proof.Gen.KernelIdeal.Points
import proofs.«157855_j17918603559163_2_alg».proof.Proof.Gen.KernelIdeal.Frame
import proofs.«157855_j17918603559163_2_alg».proof.Proof.Gen.ReferenceIdeal
import proofs.«157855_j17918603559163_2_alg».proof.Proof.Gen.Pre_finite_inputs
import proofs.«157855_j17918603559163_2_alg».proof.Proof.Gen.KernelIdeal.Value
import proofs.«157855_j17918603559163_2_alg».proof.Proof.Gen.ReferenceIdeal.Run
import proofs.«157855_j17918603559163_2_alg».proof.Proof.Gen.ReferenceIdeal.Read
import proofs.«157855_j17918603559163_2_alg».proof.Proof.ColumnScale
import proofs.«157855_j17918603559163_2_alg».proof.Proof.ReferenceScale
import proofs.«157855_j17918603559163_2_alg».proof.Proof.BlockScale
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization, so nothing is to be preserved. -/
theorem preserves : Cert.preserves_Kernel_KernelIdeal := trivial

/-- Over the extended reals, from memories that agree on `x` and `w`, both programs end with the column scaling of
    `x` by `w`: the kernel block by block, the reference in one product. -/
theorem algebraic : Cert.algebraic_KernelIdeal_ReferenceIdeal := by
  intro m ρ m' ρ' _ hagree
  refine ⟨fun c => Cert.ColumnScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.BlockScale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.stage_eq_scaled, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
